-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S2x50000x16 : Shape := ⟨3, ![2, 50000, 16]⟩
abbrev S2x50000x16x8 : Shape := ⟨4, ![2, 50000, 16, 8]⟩
abbrev S2x50000x16x16 : Shape := ⟨4, ![2, 50000, 16, 16]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S2x50000x16x8 : S_.BroadcastsInDim S2x50000x16x8 (![] : Fin 0 → Fin S2x50000x16x8.rank)
  reducesTo_S2x50000x16x8_S_d0_1_2_3 : S2x50000x16x8.ReducesTo [0, 1, 2, 3] S_
  bcast_S_S2x50000x16x16 : S_.BroadcastsInDim S2x50000x16x16 (![] : Fin 0 → Fin S2x50000x16x16.rank)
  reducesTo_S2x50000x16x16_S_d0_1_2_3 : S2x50000x16x16.ReducesTo [0, 1, 2, 3] S_

variable [Facts]

def fn {F : FTy → Type} [FloatOps F] (main_arg0 : FVec F S2x50000x64 .f32) (main_arg1 : IVec S2x50000x16 32) (main_arg2 : FVec F S2x50000x16x8 .f32) (main_arg3 : FVec F S2x50000x16x16 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S2x50000x16x8 .f32 := Host.absf main_arg2
  let main_cst_0 : FVec F S_ .f32 := constant S_ .f32 0x7F800000#32
  let main_v5 : FVec F S2x50000x16x8 .f32 := broadcastInDim S2x50000x16x8 ![] bcast_S_S2x50000x16x8 main_cst_0
  let main_v6 : IVec S2x50000x16x8 1 := cmpf .olt main_v4 main_v5
  let main_c_1 : IVec S_ 1 := constantI S_ 1 1#1
  let main_v7 : IVec S_ 1 := (fun x v => Host.reduce IntOp.andi x v reducesTo_S2x50000x16x8_S_d0_1_2_3 h_S_) main_v6 main_c_1
  let main_v8 : IVec S_ 1 := andi main_v3 main_v7
  let main_v9 : FVec F S2x50000x16x16 .f32 := Host.absf main_arg3
  let main_cst_2 : FVec F S_ .f32 := constant S_ .f32 0x7F800000#32
  let main_v10 : FVec F S2x50000x16x16 .f32 := broadcastInDim S2x50000x16x16 ![] bcast_S_S2x50000x16x16 main_cst_2
  let main_v11 : IVec S2x50000x16x16 1 := cmpf .olt main_v9 main_v10
  let main_c_3 : IVec S_ 1 := constantI S_ 1 1#1
  let main_v12 : IVec S_ 1 := (fun x v => Host.reduce IntOp.andi x v reducesTo_S2x50000x16x16_S_d0_1_2_3 h_S_) main_v11 main_c_3
  let main_v13 : IVec S_ 1 := andi main_v8 main_v12
  main_v13
-- ==== Kernel.lean ====
abbrev S2x50000x64 : Shape := ⟨3, ![2, 50000, 64]⟩
abbrev S2x50000x16 : Shape := ⟨3, ![2, 50000, 16]⟩
abbrev S2x50000x16x8 : Shape := ⟨4, ![2, 50000, 16, 8]⟩
abbrev S2x50000x16x16 : Shape := ⟨4, ![2, 50000, 16, 16]⟩
abbrev S_ : Shape := ⟨0, ![]⟩
abbrev S2x50000x16x1 : Shape := ⟨4, ![2, 50000, 16, 1]⟩
abbrev S2x50000x16x64 : Shape := ⟨4, ![2, 50000, 16, 64]⟩
abbrev S100000x16x64 : Shape := ⟨3, ![100000, 16, 64]⟩
abbrev S100000x16x8 : Shape := ⟨3, ![100000, 16, 8]⟩
abbrev S100000x16x16 : Shape := ⟨3, ![100000, 16, 16]⟩
abbrev S100000x1024 : Shape := ⟨2, ![100000, 1024]⟩
abbrev S1000x16x64 : Shape := ⟨3, ![1000, 16, 64]⟩
abbrev S1000x16x8 : Shape := ⟨3, ![1000, 16, 8]⟩
abbrev S1000x16x16 : Shape := ⟨3, ![1000, 16, 16]⟩
abbrev S1000x1024 : Shape := ⟨2, ![1000, 1024]⟩
abbrev S1000x16x1 : Shape := ⟨3, ![1000, 16, 1]⟩
abbrev S1000x8x16 : Shape := ⟨3, ![1000, 8, 16]⟩
abbrev S1000x128 : Shape := ⟨2, ![1000, 128]⟩
abbrev S2x50000x1024 : Shape := ⟨3, ![2, 50000, 1024]⟩

abbrev nBuf : Space → Nat
  | .hbm => 21
  | .vmem => 8
  | .smem => 0
  | _ => 0

abbrev bufTy : (tb : Table) → Fin (tcTables nBuf tb) → BufTy
  | .hbm, ⟨0, _⟩ => ⟨S2x50000x64, .f32⟩
  | .hbm, ⟨1, _⟩ => ⟨S2x50000x16, .i32⟩
  | .hbm, ⟨2, _⟩ => ⟨S2x50000x16x8, .f32⟩
  | .hbm, ⟨3, _⟩ => ⟨S2x50000x16x16, .f32⟩
  | .hbm, ⟨4, _⟩ => ⟨S2x50000x64, .bf16⟩
  | .hbm, ⟨5, _⟩ => ⟨S_, .i32⟩
  | .hbm, ⟨6, _⟩ => ⟨S2x50000x16, .i32⟩
  | .hbm, ⟨7, _⟩ => ⟨S2x50000x16, .i1⟩
  | .hbm, ⟨8, _⟩ => ⟨S_, .i32⟩
  | .hbm, ⟨9, _⟩ => ⟨S2x50000x16, .i32⟩
  | .hbm, ⟨10, _⟩ => ⟨S2x50000x16, .i32⟩
  | .hbm, ⟨11, _⟩ => ⟨S2x50000x16, .i32⟩
  | .hbm, ⟨12, _⟩ => ⟨S2x50000x16x1, .i32⟩
  | .hbm, ⟨13, _⟩ => ⟨S2x50000x16x64, .bf16⟩
  | .hbm, ⟨14, _⟩ => ⟨S2x50000x16x8, .bf16⟩
  | .hbm, ⟨15, _⟩ => ⟨S2x50000x16x16, .bf16⟩
  | .hbm, ⟨16, _⟩ => ⟨S100000x16x64, .bf16⟩
  | .hbm, ⟨17, _⟩ => ⟨S100000x16x8, .bf16⟩
  | .hbm, ⟨18, _⟩ => ⟨S100000x16x16, .bf16⟩
  | .hbm, ⟨19, _⟩ => ⟨S100000x1024, .f32⟩
  | .hbm, ⟨20, _⟩ => ⟨S2x50000x1024, .f32⟩
  | .local _ .vmem, ⟨0, _⟩ => ⟨S1000x16x64, .bf16⟩
  | .local _ .vmem, ⟨1, _⟩ => ⟨S1000x16x64, .bf16⟩
  | .local _ .vmem, ⟨2, _⟩ => ⟨S1000x16x8, .bf16⟩
  | .local _ .vmem, ⟨3, _⟩ => ⟨S1000x16x8, .bf16⟩
  | .local _ .vmem, ⟨4, _⟩ => ⟨S1000x16x16, .bf16⟩
  | .local _ .vmem, ⟨5, _⟩ => ⟨S1000x16x16, .bf16⟩
  | .local _ .vmem, ⟨6, _⟩ => ⟨S1000x1024, .f32⟩
  | .local _ .vmem, ⟨7, _⟩ => ⟨S1000x1024, .f32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S2x50000x16 : S_.BroadcastsInDim S2x50000x16 (![] : Fin 0 → Fin S2x50000x16.rank)
  bcast_S2x50000x16_S2x50000x16x1_0_1_2 : S2x50000x16.BroadcastsInDim S2x50000x16x1 (![0, 1, 2] : Fin 3 → Fin S2x50000x16x1.rank)
  shapeCasts_S2x50000x16x64_S100000x16x64 : S2x50000x16x64.ShapeCasts S100000x16x64
  shapeCasts_S2x50000x16x8_S100000x16x8 : S2x50000x16x8.ShapeCasts S100000x16x8
  shapeCasts_S2x50000x16x16_S100000x16x16 : S2x50000x16x16.ShapeCasts S100000x16x16
  inb_S1000x16x64_S1000x16x64_0_0_0 : ∀ a, (![0, 0, 0] : Fin 3 → Nat) a + S1000x16x64.size a ≤ S1000x16x64.size a
  h_S1000x16x64 : 0 < S1000x16x64.numel
  shapeCasts_S1000x16x64_S1000x16x64 : S1000x16x64.ShapeCasts S1000x16x64
  inb_S1000x16x8_S1000x16x8_0_0_0 : ∀ a, (![0, 0, 0] : Fin 3 → Nat) a + S1000x16x8.size a ≤ S1000x16x8.size a
  h_S1000x16x8 : 0 < S1000x16x8.numel
  shapeCasts_S1000x16x8_S1000x16x8 : S1000x16x8.ShapeCasts S1000x16x8
  inb_S1000x16x16_S1000x16x16_0_0_0 : ∀ a, (![0, 0, 0] : Fin 3 → Nat) a + S1000x16x16.size a ≤ S1000x16x16.size a
  h_S1000x16x16 : 0 < S1000x16x16.numel
  shapeCasts_S1000x16x16_S1000x16x16 : S1000x16x16.ShapeCasts S1000x16x16
  slices_S1000x16x64_o0_0_0_S1000x16x8 : S1000x16x64.Slices ![0, 0, 0] S1000x16x8
  slices_S1000x16x8_o0_0_0_S1000x16x1 : S1000x16x8.Slices ![0, 0, 0] S1000x16x1
  broadcasts_S1000x16x1_S1000x16x8 : S1000x16x1.Broadcasts S1000x16x8
  shapeCasts_S1000x8x16_S1000x128 : S1000x8x16.ShapeCasts S1000x128
  inb_S1000x1024_S1000x128_0_0 : ∀ a, (![0, 0] : Fin 2 → Nat) a + S1000x128.size a ≤ S1000x1024.size a
  h_S1000x128 : 0 < S1000x128.numel
  slices_S1000x16x64_o0_0_8_S1000x16x8 : S1000x16x64.Slices ![0, 0, 8] S1000x16x8
  slices_S1000x16x8_o0_0_1_S1000x16x1 : S1000x16x8.Slices ![0, 0, 1] S1000x16x1
  inb_S1000x1024_S1000x128_0_128 : ∀ a, (![0, 128] : Fin 2 → Nat) a + S1000x128.size a ≤ S1000x1024.size a
  slices_S1000x16x64_o0_0_16_S1000x16x8 : S1000x16x64.Slices ![0, 0, 16] S1000x16x8
  slices_S1000x16x8_o0_0_2_S1000x16x1 : S1000x16x8.Slices ![0, 0, 2] S1000x16x1
  inb_S1000x1024_S1000x128_0_256 : ∀ a, (![0, 256] : Fin 2 → Nat) a + S1000x128.size a ≤ S1000x1024.size a
  slices_S1000x16x64_o0_0_24_S1000x16x8 : S1000x16x64.Slices ![0, 0, 24] S1000x16x8
  slices_S1000x16x8_o0_0_3_S1000x16x1 : S1000x16x8.Slices ![0, 0, 3] S1000x16x1
  inb_S1000x1024_S1000x128_0_384 : ∀ a, (![0, 384] : Fin 2 → Nat) a + S1000x128.size a ≤ S1000x1024.size a
  slices_S1000x16x64_o0_0_32_S1000x16x8 : S1000x16x64.Slices ![0, 0, 32] S1000x16x8
  slices_S1000x16x8_o0_0_4_S1000x16x1 : S1000x16x8.Slices ![0, 0, 4] S1000x16x1
  inb_S1000x1024_S1000x128_0_512 : ∀ a, (![0, 512] : Fin 2 → Nat) a + S1000x128.size a ≤ S1000x1024.size a
  slices_S1000x16x64_o0_0_40_S1000x16x8 : S1000x16x64.Slices ![0, 0, 40] S1000x16x8
  slices_S1000x16x8_o0_0_5_S1000x16x1 : S1000x16x8.Slices ![0, 0, 5] S1000x16x1
  inb_S1000x1024_S1000x128_0_640 : ∀ a, (![0, 640] : Fin 2 → Nat) a + S1000x128.size a ≤ S1000x1024.size a
  slices_S1000x16x64_o0_0_48_S1000x16x8 : S1000x16x64.Slices ![0, 0, 48] S1000x16x8
  slices_S1000x16x8_o0_0_6_S1000x16x1 : S1000x16x8.Slices ![0, 0, 6] S1000x16x1
  inb_S1000x1024_S1000x128_0_768 : ∀ a, (![0, 768] : Fin 2 → Nat) a + S1000x128.size a ≤ S1000x1024.size a
  slices_S1000x16x64_o0_0_56_S1000x16x8 : S1000x16x64.Slices ![0, 0, 56] S1000x16x8
  slices_S1000x16x8_o0_0_7_S1000x16x1 : S1000x16x8.Slices ![0, 0, 7] S1000x16x1
  inb_S1000x1024_S1000x128_0_896 : ∀ a, (![0, 896] : Fin 2 → Nat) a + S1000x128.size a ≤ S1000x1024.size a
  shapeCasts_S100000x1024_S2x50000x1024 : S100000x1024.ShapeCasts S2x50000x1024
  gather_S2x50000x64_S2x50000x16x1_S2x50000x16x64_3_1_0_0_1_3_1164_wf : GatherDims.WF S2x50000x64 S2x50000x16x1 S2x50000x16x64 [3] [1] [0] [1] [0] 3 ![1, 1, 64]
  dot_S1000x16x8_S1000x16x16_S1000x8x16_1_1_2_2_0_0_wf : DotDims.WF S1000x16x8 S1000x16x16 S1000x8x16 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x64.size a ≤ S100000x16x64.size a
  hwx0_0 : ∀ i : grid0.Coords, EltTy.bits .bf16 = 32 ∨ (Rect.block (s := S100000x16x64) S1000x16x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x8.size a ≤ S100000x16x8.size a
  hwx0_1 : ∀ i : grid0.Coords, EltTy.bits .bf16 = 32 ∨ (Rect.block (s := S100000x16x8) S1000x16x8.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x16.size a ≤ S100000x16x16.size a
  hwx0_2 : ∀ i : grid0.Coords, EltTy.bits .bf16 = 32 ∨ (Rect.block (s := S100000x16x16) S1000x16x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S100000x1024.size a
  hwx0_3 : ∀ i : grid0.Coords, EltTy.bits .f32 = 32 ∨ (Rect.block (s := S100000x1024) S1000x1024.size (cc0_transform_3 i) (hinb0_3 i)).WholeWords (EltTy.packing .f32)

variable [Facts₀]

def gather_S2x50000x64_S2x50000x16x1_S2x50000x16x64_3_1_0_0_1_3_1164 : GatherDims S2x50000x64 S2x50000x16x1 S2x50000x16x64 where
  offsetDims := [3]
  collapsedSliceDims := [1]
  operandBatchingDims := [0]
  startIndicesBatchingDims := [0]
  startIndexMap := [1]
  indexVectorDim := 3
  sliceSizes := ![1, 1, 64]
  wf := gather_S2x50000x64_S2x50000x16x1_S2x50000x16x64_3_1_0_0_1_3_1164_wf
def dot_S1000x16x8_S1000x16x16_S1000x8x16_1_1_2_2_0_0 : DotDims S1000x16x8 S1000x16x16 S1000x8x16 where
  lhsContracting := [1]
  rhsContracting := [1]
  lhsNonContracting := [2]
  rhsNonContracting := [2]
  lhsBatch := [0]
  rhsBatch := [0]
  wf := dot_S1000x16x8_S1000x16x16_S1000x8x16_1_1_2_2_0_0_wf

abbrev win0_0 : Pipeline.Window sig grid0 :=
  Pipeline.Window.ofSpec (Memref.whole main_v10) S1000x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1000x16x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1000x16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x50000x64 : Shape := ⟨3, ![2, 50000, 64]⟩
abbrev S2x50000x16 : Shape := ⟨3, ![2, 50000, 16]⟩
abbrev S2x50000x16x8 : Shape := ⟨4, ![2, 50000, 16, 8]⟩
abbrev S2x50000x16x16 : Shape := ⟨4, ![2, 50000, 16, 16]⟩
abbrev S_ : Shape := ⟨0, ![]⟩
abbrev S2x50000x16x1 : Shape := ⟨4, ![2, 50000, 16, 1]⟩
abbrev S2x50000x16x64 : Shape := ⟨4, ![2, 50000, 16, 64]⟩
abbrev S2x50000x16x8x8 : Shape := ⟨5, ![2, 50000, 16, 8, 8]⟩
abbrev S2x50000x16x8x1 : Shape := ⟨5, ![2, 50000, 16, 8, 1]⟩
abbrev S2x50000x64x16 : Shape := ⟨4, ![2, 50000, 64, 16]⟩
abbrev S2x50000x1024 : Shape := ⟨3, ![2, 50000, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x50000x64, .f32⟩
  | .hbm, ⟨1, _⟩ => ⟨S2x50000x16, .i32⟩
  | .hbm, ⟨2, _⟩ => ⟨S2x50000x16x8, .f32⟩
  | .hbm, ⟨3, _⟩ => ⟨S2x50000x16x16, .f32⟩
  | .hbm, ⟨4, _⟩ => ⟨S_, .i32⟩
  | .hbm, ⟨5, _⟩ => ⟨S2x50000x16, .i32⟩
  | .hbm, ⟨6, _⟩ => ⟨S2x50000x16, .i1⟩
  | .hbm, ⟨7, _⟩ => ⟨S_, .i32⟩
  | .hbm, ⟨8, _⟩ => ⟨S2x50000x16, .i32⟩
  | .hbm, ⟨9, _⟩ => ⟨S2x50000x16, .i32⟩
  | .hbm, ⟨10, _⟩ => ⟨S2x50000x16, .i32⟩
  | .hbm, ⟨11, _⟩ => ⟨S2x50000x16x1, .i32⟩
  | .hbm, ⟨12, _⟩ => ⟨S2x50000x16x64, .f32⟩
  | .hbm, ⟨13, _⟩ => ⟨S2x50000x16x8x8, .f32⟩
  | .hbm, ⟨14, _⟩ => ⟨S2x50000x16x8x1, .f32⟩
  | .hbm, ⟨15, _⟩ => ⟨S2x50000x16x8x8, .f32⟩
  | .hbm, ⟨16, _⟩ => ⟨S2x50000x16x8x8, .f32⟩
  | .hbm, ⟨17, _⟩ => ⟨S2x50000x16x64, .f32⟩
  | .hbm, ⟨18, _⟩ => ⟨S2x50000x64x16, .f32⟩
  | .hbm, ⟨19, _⟩ => ⟨S2x50000x1024, .f32⟩
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2x50000x16 : S_.BroadcastsInDim S2x50000x16 (![] : Fin 0 → Fin S2x50000x16.rank)
  bcast_S2x50000x16_S2x50000x16x1_0_1_2 : S2x50000x16.BroadcastsInDim S2x50000x16x1 (![0, 1, 2] : Fin 3 → Fin S2x50000x16x1.rank)
  shapeCasts_S2x50000x16x64_S2x50000x16x8x8 : S2x50000x16x64.ShapeCasts S2x50000x16x8x8
  bcast_S2x50000x16x8_S2x50000x16x8x1_0_1_2_3 : S2x50000x16x8.BroadcastsInDim S2x50000x16x8x1 (![0, 1, 2, 3] : Fin 4 → Fin S2x50000x16x8x1.rank)
  bcast_S2x50000x16x8x1_S2x50000x16x8x8_0_1_2_3_4 : S2x50000x16x8x1.BroadcastsInDim S2x50000x16x8x8 (![0, 1, 2, 3, 4] : Fin 5 → Fin S2x50000x16x8x8.rank)
  shapeCasts_S2x50000x16x8x8_S2x50000x16x64 : S2x50000x16x8x8.ShapeCasts S2x50000x16x64
  shapeCasts_S2x50000x64x16_S2x50000x1024 : S2x50000x64x16.ShapeCasts S2x50000x1024
  gather_S2x50000x64_S2x50000x16x1_S2x50000x16x64_3_1_0_0_1_3_1164_wf : GatherDims.WF S2x50000x64 S2x50000x16x1 S2x50000x16x64 [3] [1] [0] [1] [0] 3 ![1, 1, 64]
  dot_S2x50000x16x64_S2x50000x16x16_S2x50000x64x16_2_2_3_3_01_01_wf : DotDims.WF S2x50000x16x64 S2x50000x16x16 S2x50000x64x16 [2] [2] [3] [3] [0, 1] [0, 1]

variable [Facts₀]

def gather_S2x50000x64_S2x50000x16x1_S2x50000x16x64_3_1_0_0_1_3_1164 : GatherDims S2x50000x64 S2x50000x16x1 S2x50000x16x64 where
  offsetDims := [3]
  collapsedSliceDims := [1]
  operandBatchingDims := [0]
  startIndicesBatchingDims := [0]
  startIndexMap := [1]
  indexVectorDim := 3
  sliceSizes := ![1, 1, 64]
  wf := gather_S2x50000x64_S2x50000x16x1_S2x50000x16x64_3_1_0_0_1_3_1164_wf
def dot_S2x50000x16x64_S2x50000x16x16_S2x50000x64x16_2_2_3_3_01_01 : DotDims S2x50000x16x64 S2x50000x16x16 S2x50000x64x16 where
  lhsContracting := [2]
  rhsContracting := [2]
  lhsNonContracting := [3]
  rhsNonContracting := [3]
  lhsBatch := [0, 1]
  rhsBatch := [0, 1]
  wf := dot_S2x50000x16x64_S2x50000x16x16_S2x50000x64x16_2_2_3_3_01_01_wf

class Facts : Prop extends Facts₀ where

variable [Facts]
-- ==== Proof.Spec.lean ====
/-
  The function both programs compute, stated once over literal shapes.

  For a batch `b`, a point `n` and an output column `j = 16·c + m` (input channel `c < 64`, weight column `m < 16`) the
  result is the sum over the point's 16 neighbours `k` of

      (gathered feature of channel `c` at neighbour `k`) · (guidance of the channel's head `c / 8` at `k`) · (weight `m` at `k`).

  The same sum is stated twice: over the batched arrays `[2, 50000, …]` (`agg`), and over arrays whose first two axes
  are joined into one row axis `[R, …]` (`rowsAgg R`; `R = 100000` is the whole array, `R = 1000` one block of rows).
  Joining the two leading axes commutes with the sum, because the row `50000·b + n` of each flattened operand is the
  pair `(b, n)` of the batched one and the trailing axes are untouched: `agg_of_rows`.
-/
import Idealize.ShloMosaic.PureOps.Ideal
import Idealize.ShloMosaic.Lib.ValueIdx
import Idealize.ShloMosaic.Lib.Pipeline.Value

noncomputable section

namespace Cert.Agg

open Idealize.ShloMosaic Idealize.ShloMosaic.ValueIdx

/-- The input channel `c = j / 16` of output column `j = 16·c + m`. -/
def chan (j : Fin 1024) : Fin 64 := ⟨j.val / 16, by have := j.isLt; omega⟩
/-- The guidance head of that channel: `c / 8 = j / 128`. -/
def head (j : Fin 1024) : Fin 8 := ⟨j.val / 128, by have := j.isLt; omega⟩
/-- The weight column `m = j mod 16`. -/
def wcol (j : Fin 1024) : Fin 16 := ⟨j.val % 16, Nat.mod_lt _ (by decide)⟩

/-- One entry over the batched arrays: the sum over the 16 neighbours. -/
def aggAt (g : (⟨4, ![2, 50000, 16, 64]⟩ : Shape).Idx → EReal) (gd : (⟨4, ![2, 50000, 16, 8]⟩ : Shape).Idx → EReal)
    (wn : (⟨4, ![2, 50000, 16, 16]⟩ : Shape).Idx → EReal) (b : Fin 2) (n : Fin 50000) (j : Fin 1024) : EReal :=
  ∑ k : Fin 16, g (ix4 b n k (chan j)) * gd (ix4 b n k (head j)) * wn (ix4 b n k (wcol j))

/-- The whole result over the batched arrays. -/
def agg (g : (⟨4, ![2, 50000, 16, 64]⟩ : Shape).Idx → EReal) (gd : (⟨4, ![2, 50000, 16, 8]⟩ : Shape).Idx → EReal)
    (wn : (⟨4, ![2, 50000, 16, 16]⟩ : Shape).Idx → EReal) : (⟨3, ![2, 50000, 1024]⟩ : Shape).Idx → EReal :=
  fun i => aggAt g gd wn (i 0) (i 1) (i 2)

/-- One entry over arrays of `R` rows. -/
def rowsAggAt (R : Nat) (g : (⟨3, ![R, 16, 64]⟩ : Shape).Idx → EReal) (gd : (⟨3, ![R, 16, 8]⟩ : Shape).Idx → EReal)
    (wn : (⟨3, ![R, 16, 16]⟩ : Shape).Idx → EReal) (r : Fin R) (j : Fin 1024) : EReal :=
  ∑ k : Fin 16, g (ix3 r k (chan j)) * gd (ix3 r k (head j)) * wn (ix3 r k (wcol j))

/-- The whole result over arrays of `R` rows. -/
def rowsAgg (R : Nat) (g : (⟨3, ![R, 16, 64]⟩ : Shape).Idx → EReal) (gd : (⟨3, ![R, 16, 8]⟩ : Shape).Idx → EReal)
    (wn : (⟨3, ![R, 16, 16]⟩ : Shape).Idx → EReal) : (⟨2, ![R, 1024]⟩ : Shape).Idx → EReal :=
  fun i => rowsAggAt R g gd wn (i 0) (i 1)

theorem agg_apply (g : (⟨4, ![2, 50000, 16, 64]⟩ : Shape).Idx → EReal) (gd : (⟨4, ![2, 50000, 16, 8]⟩ : Shape).Idx → EReal)
    (wn : (⟨4, ![2, 50000, 16, 16]⟩ : Shape).Idx → EReal) (b : Fin 2) (n : Fin 50000) (j : Fin 1024) :
    agg g gd wn (ix3 b n j) = aggAt g gd wn b n j := rfl

theorem rowsAgg_apply (R : Nat) (g : (⟨3, ![R, 16, 64]⟩ : Shape).Idx → EReal) (gd : (⟨3, ![R, 16, 8]⟩ : Shape).Idx → EReal)
    (wn : (⟨3, ![R, 16, 16]⟩ : Shape).Idx → EReal) (r : Fin R) (j : Fin 1024) :
    rowsAgg R g gd wn (ix2 r j) = rowsAggAt R g gd wn r j := rfl

/-- Row `50000·b + n` of a flattened operand is the pair `(b, n)` of the batched one (the trailing two axes `[16, w]`
    keep their coordinates): the two indices have one row-major position. -/
theorem flat_operand {w : Nat} (x : (⟨4, ![2, 50000, 16, w]⟩ : Shape).Idx → EReal)
    (h : (⟨4, ![2, 50000, 16, w]⟩ : Shape).ShapeCasts ⟨3, ![100000, 16, w]⟩)
    (b : Fin 2) (n : Fin 50000) (hr : b.val * 50000 + n.val < 100000) (k : Fin 16) (e : Fin w) :
    shapeCast ⟨3, ![100000, 16, w]⟩ x h (ix3 ⟨b.val * 50000 + n.val, hr⟩ k e) = x (ix4 b n k e) :=
  shapeCast_apply x h _ _ (by
    rw [Shape.rowMajor_val_four, Shape.rowMajor_val_three]
    show ((b.val * 50000 + n.val) * 16 + k.val) * w + e.val = ((b.val * 50000 + n.val) * 16 + k.val) * w + e.val
    rfl)

/-- Joining the two leading axes of every operand, summing row by row, and splitting the rows of the result again
    is the batched sum. -/
theorem agg_of_rows (g : (⟨4, ![2, 50000, 16, 64]⟩ : Shape).Idx → EReal) (gd : (⟨4, ![2, 50000, 16, 8]⟩ : Shape).Idx → EReal)
    (wn : (⟨4, ![2, 50000, 16, 16]⟩ : Shape).Idx → EReal)
    (h0 : (⟨4, ![2, 50000, 16, 64]⟩ : Shape).ShapeCasts ⟨3, ![100000, 16, 64]⟩)
    (h1 : (⟨4, ![2, 50000, 16, 8]⟩ : Shape).ShapeCasts ⟨3, ![100000, 16, 8]⟩)
    (h2 : (⟨4, ![2, 50000, 16, 16]⟩ : Shape).ShapeCasts ⟨3, ![100000, 16, 16]⟩)
    (h3 : (⟨2, ![100000, 1024]⟩ : Shape).ShapeCasts ⟨3, ![2, 50000, 1024]⟩) :
    shapeCast ⟨3, ![2, 50000, 1024]⟩
      (rowsAgg 100000 (shapeCast ⟨3, ![100000, 16, 64]⟩ g h0) (shapeCast ⟨3, ![100000, 16, 8]⟩ gd h1)
        (shapeCast ⟨3, ![100000, 16, 16]⟩ wn h2)) h3 = agg g gd wn := by
  funext i
  obtain ⟨b, n, j, rfl⟩ : ∃ (b : Fin 2) (n : Fin 50000) (j : Fin 1024), i = ix3 b n j := ⟨i 0, i 1, i 2, eq_ix3 i⟩
  have hr : b.val * 50000 + n.val < 100000 := by have := b.isLt; have := n.isLt; omega
  refine (shapeCast_apply _ h3 (ix3 b n j) (ix2 ⟨b.val * 50000 + n.val, hr⟩ j) (by
    rw [Shape.rowMajor_val_two, Shape.rowMajor_val_three]
    show (b.val * 50000 + n.val) * 1024 + j.val = (b.val * 50000 + n.val) * 1024 + j.val
    rfl)).trans ?_
  rw [rowsAgg_apply, agg_apply]
  unfold rowsAggAt aggAt
  refine Finset.sum_congr rfl fun k _ => ?_
  rw [flat_operand g h0 b n hr k (chan j), flat_operand gd h1 b n hr k (head j), flat_operand wn h2 b n hr k (wcol j)]

end Cert.Agg

end
-- ==== Proof.RefSpec.lean ====
/-
  The reference's last stage is the specification.

  The reference gathers the neighbours' features (an array g of shape [2, 50000, 16, 64], kept here as an opaque
  function), views it as [2, 50000, 16, 8, 8], multiplies by the guidance broadcast over the last axis, views the
  product back as [2, 50000, 16, 64], contracts the neighbour axis against the weights (batch axes 0 and 1; the result
  has shape [2, 50000, 64, 16]) and views the result as [2, 50000, 1024].

  Read at (b, n, j) with j = 16·c + m (c < 64, m < 16): the last view reads the contraction at (b, n, c, m); the
  contraction is the sum over the neighbours k of the product at (b, n, k, c) times the weight at (b, n, k, m); the
  product at (b, n, k, c) is read through the view [16, 64] → [16, 8, 8] at (b, n, k, c / 8, c mod 8), where it is
  g at (b, n, k, 8·(c / 8) + c mod 8) = g at (b, n, k, c) times the guidance at (b, n, k, c / 8). With c = j / 16,
  c / 8 = j / 128 and m = j mod 16 this is the specification's sum.

  Every view keeps the row-major position, so each step below is a statement about quotients and remainders of
  literal sizes.
-/
import proofs.«152492_j9165460209716_2_alg».proof.Proof.Gen.ReferenceIdeal.Read
import proofs.«152492_j9165460209716_2_alg».proof.Proof.Spec

noncomputable section
namespace Cert.ReferenceIdeal.RefSpec
open Cert.ReferenceIdeal Cert.ReferenceIdeal.Read Idealize.ShloMosaic Idealize.ShloMosaic.ValueIdx

/-! ## One view or operand index at a time -/

/-- The last view [2, 50000, 64, 16] → [2, 50000, 1024]: column j = 16·c + m is the pair (c, m). -/
theorem idx13 (b : Fin 2) (n : Fin 50000) (j : Fin 1024) :
    idx_main_v13 (ix3 b n j) = ix4 b n (Cert.Agg.chan j) (Cert.Agg.wcol j) :=
  funext fun a => Fin.ext (by
    have hb := b.isLt; have hn := n.isLt; have hj := j.isLt
    match a with
    | ⟨0, _⟩ => show ((b.val * 50000 + n.val) * 1024 + j.val) / 51200000 = b.val; omega
    | ⟨1, _⟩ => show ((b.val * 50000 + n.val) * 1024 + j.val) / 1024 % 50000 = n.val; omega
    | ⟨2, _⟩ => show ((b.val * 50000 + n.val) * 1024 + j.val) / 16 % 64 = j.val / 16; omega
    | ⟨3, _⟩ => show ((b.val * 50000 + n.val) * 1024 + j.val) % 16 = j.val % 16; omega)

/-- The contraction's left operand at neighbour k: the result's (b, n, c, m) reads (b, n, k, c). -/
theorem lidx12 (b : Fin 2) (n : Fin 50000) (c : Fin 64) (m : Fin 16) (k : Fin 16) :
    lidx_main_v12 (ix4 b n c m) k = ix4 b n k c :=
  funext fun a => Fin.ext (by
    match a with
    | ⟨0, _⟩ => rfl
    | ⟨1, _⟩ => rfl
    | ⟨2, _⟩ => rfl
    | ⟨3, _⟩ => rfl)

/-- The contraction's right operand at neighbour k: the result's (b, n, c, m) reads (b, n, k, m). -/
theorem ridx12 (b : Fin 2) (n : Fin 50000) (c : Fin 64) (m : Fin 16) (k : Fin 16) :
    ridx_main_v12 (ix4 b n c m) k = ix4 b n k m :=
  funext fun a => Fin.ext (by
    match a with
    | ⟨0, _⟩ => rfl
    | ⟨1, _⟩ => rfl
    | ⟨2, _⟩ => rfl
    | ⟨3, _⟩ => rfl)

/-- The view [2, 50000, 16, 8, 8] → [2, 50000, 16, 64]: channel c is the pair (c / 8, c mod 8). -/
theorem idx11 (b : Fin 2) (n : Fin 50000) (k : Fin 16) (c : Fin 64) :
    idx_main_v11 (ix4 b n k c)
      = ix5 b n k (⟨c.val / 8, by have := c.isLt; omega⟩ : Fin 8) (⟨c.val % 8, Nat.mod_lt _ (by decide)⟩ : Fin 8) :=
  funext fun a => Fin.ext (by
    have hb := b.isLt; have hn := n.isLt; have hk := k.isLt; have hc := c.isLt
    match a with
    | ⟨0, _⟩ => show (((b.val * 50000 + n.val) * 16 + k.val) * 64 + c.val) / 51200000 = b.val; omega
    | ⟨1, _⟩ => show (((b.val * 50000 + n.val) * 16 + k.val) * 64 + c.val) / 1024 % 50000 = n.val; omega
    | ⟨2, _⟩ => show (((b.val * 50000 + n.val) * 16 + k.val) * 64 + c.val) / 64 % 16 = k.val; omega
    | ⟨3, _⟩ => show (((b.val * 50000 + n.val) * 16 + k.val) * 64 + c.val) / 8 % 8 = c.val / 8; omega
    | ⟨4, _⟩ => show (((b.val * 50000 + n.val) * 16 + k.val) * 64 + c.val) % 8 = c.val % 8; omega)

/-- The view [2, 50000, 16, 64] → [2, 50000, 16, 8, 8]: the pair (h, e) is channel 8·h + e. -/
theorem idx7 (b : Fin 2) (n : Fin 50000) (k : Fin 16) (h e : Fin 8) :
    idx_main_v7 (ix5 b n k h e)
      = ix4 b n k (⟨h.val * 8 + e.val, by have := h.isLt; have := e.isLt; omega⟩ : Fin 64) :=
  funext fun a => Fin.ext (by
    have hb := b.isLt; have hn := n.isLt; have hk := k.isLt; have hh := h.isLt; have he := e.isLt
    match a with
    | ⟨0, _⟩ => show (((((b.val * 50000 + n.val) * 16 + k.val) * 8 + h.val) * 8 + e.val)) / 51200000 = b.val; omega
    | ⟨1, _⟩ => show (((((b.val * 50000 + n.val) * 16 + k.val) * 8 + h.val) * 8 + e.val)) / 1024 % 50000 = n.val; omega
    | ⟨2, _⟩ => show (((((b.val * 50000 + n.val) * 16 + k.val) * 8 + h.val) * 8 + e.val)) / 64 % 16 = k.val; omega
    | ⟨3, _⟩ => show (((((b.val * 50000 + n.val) * 16 + k.val) * 8 + h.val) * 8 + e.val)) % 64 = h.val * 8 + e.val; omega)

/-- The broadcast over the last axis [2, 50000, 16, 8, 1] → [2, 50000, 16, 8, 8] forgets the last coordinate. -/
theorem idx9 (b : Fin 2) (n : Fin 50000) (k : Fin 16) (h e : Fin 8) :
    idx_main_v9 (ix5 b n k h e) = ix5 b n k h (⟨0, Nat.one_pos⟩ : Fin 1) :=
  funext fun a => Fin.ext (by
    match a with
    | ⟨0, _⟩ => rfl
    | ⟨1, _⟩ => rfl
    | ⟨2, _⟩ => rfl
    | ⟨3, _⟩ => rfl
    | ⟨4, _⟩ => rfl)

/-- The unit last axis [2, 50000, 16, 8] → [2, 50000, 16, 8, 1] is dropped. -/
theorem idx8 (b : Fin 2) (n : Fin 50000) (k : Fin 16) (h : Fin 8) (z : Fin 1) :
    idx_main_v8 (ix5 b n k h z) = ix4 b n k h :=
  funext fun a => Fin.ext (by
    match a with
    | ⟨0, _⟩ => rfl
    | ⟨1, _⟩ => rfl
    | ⟨2, _⟩ => rfl
    | ⟨3, _⟩ => rfl)

/-! ## The three composed indices are the specification's -/

/-- The gathered feature read by column j at neighbour k is channel j / 16. -/
theorem feat_idx (b : Fin 2) (n : Fin 50000) (j : Fin 1024) (k : Fin 16) :
    idx_main_v7 (idx_main_v11 (lidx_main_v12 (idx_main_v13 (ix3 b n j)) k)) = ix4 b n k (Cert.Agg.chan j) := by
  rw [idx13, lidx12, idx11, idx7]
  refine congrArg (ix4 b n k) (Fin.ext ?_)
  show (Cert.Agg.chan j).val / 8 * 8 + (Cert.Agg.chan j).val % 8 = (Cert.Agg.chan j).val
  omega

/-- The guidance read by column j at neighbour k is head j / 128. -/
theorem guid_idx (b : Fin 2) (n : Fin 50000) (j : Fin 1024) (k : Fin 16) :
    idx_main_v8 (idx_main_v9 (idx_main_v11 (lidx_main_v12 (idx_main_v13 (ix3 b n j)) k))) = ix4 b n k (Cert.Agg.head j) := by
  rw [idx13, lidx12, idx11, idx9, idx8]
  refine congrArg (ix4 b n k) (Fin.ext ?_)
  show j.val / 16 / 8 = j.val / 128
  omega

/-- The weight read by column j at neighbour k is column j mod 16. -/
theorem wgt_idx (b : Fin 2) (n : Fin 50000) (j : Fin 1024) (k : Fin 16) :
    ridx_main_v12 (idx_main_v13 (ix3 b n j)) k = ix4 b n k (Cert.Agg.wcol j) := by
  rw [idx13, ridx12]

/-! ## The stage -/

theorem ref_eq_agg (x0 : (⟨S2x50000x64, .f32⟩ : BufTy).Contents (Elt Ideal)) (x1 : (⟨S2x50000x16, .i32⟩ : BufTy).Contents (Elt Ideal))
    (x2 : (⟨S2x50000x16x8, .f32⟩ : BufTy).Contents (Elt Ideal)) (x3 : (⟨S2x50000x16x16, .f32⟩ : BufTy).Contents (Elt Ideal)) :
    val_main_v13 (F := Ideal) x0 x1 x2 x3 = Cert.Agg.agg (val_main_v6 (F := Ideal) x0 x1) x2 x3 := by
  funext i
  obtain ⟨b, n, j, rfl⟩ : ∃ (b : Fin 2) (n : Fin 50000) (j : Fin 1024), i = ix3 b n j := ⟨i 0, i 1, i 2, eq_ix3 i⟩
  rw [Cert.Agg.agg_apply]
  unfold Cert.Agg.aggAt
  rw [val_main_v13_apply, val_main_v12_apply]
  refine Finset.sum_congr rfl fun k _ => ?_
  rw [val_main_v11_apply, val_main_v10_apply, val_main_v7_apply, val_main_v9_apply, val_main_v8_apply,
    feat_idx, guid_idx, wgt_idx]
  rfl

end Cert.ReferenceIdeal.RefSpec
end
-- ==== Proof.LibLastAxis.lean ====
/-
  Three layout operations on a rank-3 array `[a, b, c]`, each read at an index written with explicit coordinates.

  • A slice along the LAST axis from offset `o`: entry `(i, j, e)` of the slice is entry `(i, j, o + e)` of the source.
  • A broadcast of `[a, b, 1]` along the last axis to `[a, b, c]`: entry `(i, j, e)` is entry `(i, j, 0)` of the source.
  • The cast that joins the last two axes, `[a, b, c] → [a, b·c]`: entry `(i, q)` of the result is entry
    `(i, q / c, q mod c)` of the source, because both have the row-major position `i·(b·c) + q`.
-/
import Idealize.ShloMosaic.Lib.Pipeline.Value
import Idealize.ShloMosaic.Lib.ValueIdx

namespace Cert.Lib.LastAxis

open Idealize.ShloMosaic Idealize.ShloMosaic.ValueIdx

variable {α : Type}

/-- A rank-3 array cut along its last axis from `o` reads, at `(i, j, e)`, the source at `(i, j, k)` with `k = o + e`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A column `[a, b, 1]` broadcast along the last axis reads, at `(i, j, e)`, the column at `(i, j, 0)`. -/
theorem broadcastTo_ab1_abc_apply {a b c : Nat} (v : (⟨3, ![a, b, 1]⟩ : Shape).Idx → α)
    (h : (⟨3, ![a, b, 1]⟩ : Shape).Broadcasts ⟨3, ![a, b, c]⟩) (ha : a ≠ 1) (hb : b ≠ 1)
    (i : Fin a) (j : Fin b) (e : Fin c) :
    broadcastTo ⟨3, ![a, b, c]⟩ v h (ix3 i j e) = v (ix3 i j (0 : Fin 1)) :=
  broadcastTo_apply v h _ _ (fun ax => by
    match ax with
    | ⟨0, _⟩ => show i.val = if a = 1 then 0 else i.val; rw [if_neg ha]
    | ⟨1, _⟩ => show j.val = if b = 1 then 0 else j.val; rw [if_neg hb]
    | ⟨2, _⟩ => show 0 = if (1 : Nat) = 1 then 0 else e.val; rw [if_pos rfl])

/-- The cast joining the last two axes reads, at `(i, q)`, the source at `(i, q / c, q mod c)`. -/
theorem shapeCast_abc_a_bc_apply {a b c n : Nat} (hn : n = b * c) (hc : 0 < c) (x : (⟨3, ![a, b, c]⟩ : Shape).Idx → α)
    (h : (⟨3, ![a, b, c]⟩ : Shape).ShapeCasts ⟨2, ![a, n]⟩) (i : Fin a) (q : Fin n) :
    shapeCast ⟨2, ![a, n]⟩ x h (ix2 i q)
      = x (ix3 i ⟨q.val / c, by
              have hq : q.val < b * c := lt_of_lt_of_eq q.isLt hn
              exact Nat.div_lt_of_lt_mul (by rw [Nat.mul_comm]; exact hq)⟩
            ⟨q.val % c, Nat.mod_lt _ hc⟩) :=
  shapeCast_apply x h _ _ (by
    rw [Shape.rowMajor_val_three, Shape.rowMajor_val_two]
    show (i.val * b + q.val / c) * c + q.val % c = i.val * n + q.val
    have e := Nat.div_add_mod' q.val c
    generalize q.val = qv at e ⊢
    subst hn
    rw [Nat.add_mul, Nat.mul_assoc, Nat.add_assoc, e])

end Cert.Lib.LastAxis
-- ==== Proof.HeadPay.lean ====
/-
  One guidance head of the kernel body, read at an index.

  For a head the body takes an 8-channel slice `g8` of the gathered block `[1000, 16, 64]`, the head's guidance column
  `gd1 : [1000, 16, 1]`, multiplies them (the column broadcast along the 8 channels), and contracts the neighbour axis
  against the weights `wn : [1000, 16, 16]`, one matrix product per row into a zero accumulator; the `[1000, 8, 16]`
  result is viewed as `[1000, 128]`. At the ideal instance the changes of float format are the identity and the product
  into zero is the plain sum, so entry `(p, q)` with `q = 16·c' + m` is

      Σ_k g8(p, k, c') · gd1(p, k, 0) · wn(p, k, m).

  Each of the body's eight stored values is this head at channel offset `8·h` and guidance column `h`
  (`pay_h_apply`): entry `(p, q)` is Σ_k x0(p, k, 8h + q/16) · x1(p, k, h) · x2(p, k, q mod 16).
-/
import proofs.«152492_j9165460209716_2_alg».proof.Proof.Gen.KernelIdeal.Skeleton
import proofs.«152492_j9165460209716_2_alg».proof.Proof.LibLastAxis
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Lib.LastAxis

variable {F : FTy → Type} [FloatOps F]

/-- One head: modulate the 8-channel slice by the guidance column, contract the neighbours against the weights, join
    the last two axes. -/
def headPay (g8 : FVec F S1000x16x8 .bf16) (gd1 : FVec F S1000x16x1 .bf16) (wn : FVec F S1000x16x16 .bf16) : FVec F S1000x128 .f32 :=
  shapeCast S1000x128
    (matmul dot_S1000x16x8_S1000x16x16_S1000x8x16_1_1_2_2_0_0 none
      (truncf .bf16 (mulf (extf .f32 g8 bitsLt_bf16_f32)
        (broadcastTo S1000x16x8 (extf .f32 gd1 bitsLt_bf16_f32) broadcasts_S1000x16x1_S1000x16x8)) bitsLt_bf16_f32)
      wn (constant S1000x8x16 .f32 0x00000000#32)) shapeCasts_S1000x8x16_S1000x128

/-! ## The matrix product's operand indices: row `p` is the batch, the neighbour `k` is contracted -/

theorem lhs_0 (i : S1000x8x16.Idx) (q : dot_S1000x16x8_S1000x16x16_S1000x8x16_1_1_2_2_0_0.contr.Idx) : (dot_S1000x16x8_S1000x16x16_S1000x8x16_1_1_2_2_0_0.lhsIdx i q 0).val = (i 0).val := by
  unfold DotDims.lhsIdx
  rw [dif_pos (show (0 : Fin S1000x16x8.rank) ∈ dot_S1000x16x8_S1000x16x16_S1000x8x16_1_1_2_2_0_0.lhsBatch by decide)]
  rfl
theorem lhs_1 (i : S1000x8x16.Idx) (q : dot_S1000x16x8_S1000x16x16_S1000x8x16_1_1_2_2_0_0.contr.Idx) : (dot_S1000x16x8_S1000x16x16_S1000x8x16_1_1_2_2_0_0.lhsIdx i q 1).val = (q ⟨0, by decide⟩).val :=
  dot_S1000x16x8_S1000x16x16_S1000x8x16_1_1_2_2_0_0.lhsIdx_val_of_single rfl i q
theorem lhs_2 (i : S1000x8x16.Idx) (q : dot_S1000x16x8_S1000x16x16_S1000x8x16_1_1_2_2_0_0.contr.Idx) : (dot_S1000x16x8_S1000x16x16_S1000x8x16_1_1_2_2_0_0.lhsIdx i q 2).val = (i 1).val := by
  unfold DotDims.lhsIdx
  rw [dif_neg (show ¬(2 : Fin S1000x16x8.rank) ∈ dot_S1000x16x8_S1000x16x16_S1000x8x16_1_1_2_2_0_0.lhsBatch by decide), dif_pos (show (2 : Fin S1000x16x8.rank) ∈ dot_S1000x16x8_S1000x16x16_S1000x8x16_1_1_2_2_0_0.lhsNonContracting by decide)]
  rfl
theorem rhs_0 (i : S1000x8x16.Idx) (q : dot_S1000x16x8_S1000x16x16_S1000x8x16_1_1_2_2_0_0.contr.Idx) : (dot_S1000x16x8_S1000x16x16_S1000x8x16_1_1_2_2_0_0.rhsIdx i q 0).val = (i 0).val := by
  unfold DotDims.rhsIdx
  rw [dif_pos (show (0 : Fin S1000x16x16.rank) ∈ dot_S1000x16x8_S1000x16x16_S1000x8x16_1_1_2_2_0_0.rhsBatch by decide)]
  rfl
theorem rhs_1 (i : S1000x8x16.Idx) (q : dot_S1000x16x8_S1000x16x16_S1000x8x16_1_1_2_2_0_0.contr.Idx) : (dot_S1000x16x8_S1000x16x16_S1000x8x16_1_1_2_2_0_0.rhsIdx i q 1).val = (q ⟨0, by decide⟩).val :=
  dot_S1000x16x8_S1000x16x16_S1000x8x16_1_1_2_2_0_0.rhsIdx_val_of_single rfl i q
theorem rhs_2 (i : S1000x8x16.Idx) (q : dot_S1000x16x8_S1000x16x16_S1000x8x16_1_1_2_2_0_0.contr.Idx) : (dot_S1000x16x8_S1000x16x16_S1000x8x16_1_1_2_2_0_0.rhsIdx i q 2).val = (i 2).val := by
  unfold DotDims.rhsIdx
  rw [dif_neg (show ¬(2 : Fin S1000x16x16.rank) ∈ dot_S1000x16x8_S1000x16x16_S1000x8x16_1_1_2_2_0_0.rhsBatch by decide), dif_pos (show (2 : Fin S1000x16x16.rank) ∈ dot_S1000x16x8_S1000x16x16_S1000x8x16_1_1_2_2_0_0.rhsNonContracting by decide)]
  rfl

/-- The product into the zero accumulator at `(p, c', m)` is the sum over the neighbours `k` of the left operand at
    `(p, k, c')` times the right at `(p, k, m)`. -/
theorem matmul_zero_apply (lhs : FVec Ideal S1000x16x8 .bf16) (rhs : FVec Ideal S1000x16x16 .bf16) (p : Fin 1000) (c' : Fin 8) (mm : Fin 16) :
    matmul dot_S1000x16x8_S1000x16x16_S1000x8x16_1_1_2_2_0_0 none lhs rhs (constant (F := Ideal) S1000x8x16 .f32 0x00000000#32) (ix3 p c' mm)
      = ∑ k : Fin 16, lhs (ix3 p k c') * rhs (ix3 p k mm) := by
  simp only [matmul]
  rw [Ideal.matmul_constant_zero_apply, ← Equiv.sum_comp (contrEquiv1 dot_S1000x16x8_S1000x16x16_S1000x8x16_1_1_2_2_0_0 16 rfl rfl).symm]
  refine Finset.sum_congr rfl fun k _ => ?_
  have hk := contrEquiv1_symm_val dot_S1000x16x8_S1000x16x16_S1000x8x16_1_1_2_2_0_0 16 rfl rfl k
  have el : dot_S1000x16x8_S1000x16x16_S1000x8x16_1_1_2_2_0_0.lhsIdx (ix3 p c' mm) ((contrEquiv1 dot_S1000x16x8_S1000x16x16_S1000x8x16_1_1_2_2_0_0 16 rfl rfl).symm k) = ix3 p k c' := funext fun a => Fin.ext (by
    match a with
    | ⟨0, _⟩ => exact lhs_0 _ _
    | ⟨1, _⟩ => exact (lhs_1 _ _).trans hk
    | ⟨2, _⟩ => exact lhs_2 _ _)
  have er : dot_S1000x16x8_S1000x16x16_S1000x8x16_1_1_2_2_0_0.rhsIdx (ix3 p c' mm) ((contrEquiv1 dot_S1000x16x8_S1000x16x16_S1000x8x16_1_1_2_2_0_0 16 rfl rfl).symm k) = ix3 p k mm := funext fun a => Fin.ext (by
    match a with
    | ⟨0, _⟩ => exact rhs_0 _ _
    | ⟨1, _⟩ => exact (rhs_1 _ _).trans hk
    | ⟨2, _⟩ => exact rhs_2 _ _)
  rw [el, er]

/-- One head at entry `(p, q)`, `q = 16·c' + m`. -/
theorem headPay_apply (g8 : FVec Ideal S1000x16x8 .bf16) (gd1 : FVec Ideal S1000x16x1 .bf16) (wn : FVec Ideal S1000x16x16 .bf16)
    (p : Fin 1000) (q : Fin 128) (c' : Fin 8) (mm : Fin 16) (hc : c'.val = q.val / 16) (hm : mm.val = q.val % 16) :
    headPay (F := Ideal) g8 gd1 wn (ix2 p q)
      = ∑ k : Fin 16, g8 (ix3 p k c') * gd1 (ix3 p k (0 : Fin 1)) * wn (ix3 p k mm) := by
  unfold headPay
  refine (shapeCast_abc_a_bc_apply (a := 1000) (b := 8) (c := 16) (n := 128) rfl (by decide) _ shapeCasts_S1000x8x16_S1000x128 p q).trans ?_
  have e1 : (⟨q.val / 16, by have := q.isLt; omega⟩ : Fin 8) = c' := Fin.ext hc.symm
  have e2 : (⟨q.val % 16, Nat.mod_lt _ (by decide)⟩ : Fin 16) = mm := Fin.ext hm.symm
  rw [e1, e2]
  refine (matmul_zero_apply _ wn p c' mm).trans ?_
  refine Finset.sum_congr rfl fun k _ => ?_
  rw [truncf_apply, mulf_apply, extf_apply,
    broadcastTo_ab1_abc_apply (a := 1000) (b := 16) (c := 8) _ broadcasts_S1000x16x1_S1000x16x8 (by decide) (by decide) p k c', extf_apply]

end Cert.KernelIdeal.Body

end
-- ==== Proof.BlockSpec.lean ====
/-
  What the body leaves in the output block is the specification over the block's 1000 rows.

  The body stores eight column groups of 128 into the `[1000, 1024]` output block; group `h` (columns `128·h … 128·h + 127`)
  is head `h`: the 8-channel slice of the gathered block at channel offset `8·h`, modulated by guidance column `h`,
  contracted against the weights. Column `j = 128·h + q` has channel `j / 16 = 8·h + q / 16`, head `j / 128 = h` and weight
  column `j mod 16 = q mod 16`, so each group is the restriction of ONE function of the block index — the row-wise sum
  `rowsAgg 1000` of the three input blocks — to its columns (`piece_eq`), and the eight groups tile the block: the block
  holds that function (`out_eq`).
-/
import proofs.«152492_j9165460209716_2_alg».proof.Proof.Gen.KernelIdeal.Frame
import proofs.«152492_j9165460209716_2_alg».proof.Proof.HeadPay
import proofs.«152492_j9165460209716_2_alg».proof.Proof.Spec

noncomputable section

namespace Cert.KernelIdeal.Body

open Cert.KernelIdeal Cert.KernelIdeal.Gen Idealize.ShloMosaic Idealize.ShloMosaic.ValueIdx Cert.Lib.LastAxis

theorem hz3 : (![0, 0, 0] : Fin 3 → Nat) = fun _ => 0 := funext fun a => by fin_cases a <;> rfl

/-- Head `h` at entry `(p, q)` is the row-wise sum at row `p`, column `j = 128·h + q`. -/
theorem head_apply (o8 h : Nat) (ho8 : o8 = 8 * h) (hh : h < 8)
    (hs1 : S1000x16x64.Slices ![0, 0, o8] S1000x16x8) (hs2 : S1000x16x8.Slices ![0, 0, h] S1000x16x1)
    (x0 : FVec Ideal S1000x16x64 .bf16) (x1 : FVec Ideal S1000x16x8 .bf16) (x2 : FVec Ideal S1000x16x16 .bf16)
    (p : Fin 1000) (q : Fin 128) (j : Fin 1024) (hj : j.val = 128 * h + q.val) :
    headPay (F := Ideal) (extractStridedSlice S1000x16x8 ![0, 0, o8] x0 hs1) (extractStridedSlice S1000x16x1 ![0, 0, h] x1 hs2) x2 (ix2 p q)
      = Cert.Agg.rowsAggAt 1000 x0 x1 x2 p j := by
  have hq := q.isLt
  have hc : q.val / 16 < 8 := by omega
  have hm : q.val % 16 < 16 := Nat.mod_lt _ (by decide)
  rw [headPay_apply _ _ x2 p q ⟨q.val / 16, hc⟩ ⟨q.val % 16, hm⟩ rfl rfl]
  unfold Cert.Agg.rowsAggAt
  refine Finset.sum_congr rfl fun k _ => ?_
  rw [slice3_axis2_apply o8 x0 hs1 p k ⟨q.val / 16, hc⟩ (Cert.Agg.chan j) (by show j.val / 16 = o8 + q.val / 16; omega),
    slice3_axis2_apply h x1 hs2 p k (0 : Fin 1) (Cert.Agg.head j) (by show j.val / 128 = h + 0; omega)]
  have e : (⟨q.val % 16, hm⟩ : Fin 16) = Cert.Agg.wcol j := Fin.ext (by show q.val % 16 = j.val % 16; omega)
  rw [e]

/-- A column group's stored value, at its local index, is the row-wise sum at the index its rectangle embeds it at. -/
theorem piece_eq (o8 o128 h : Nat) (ho8 : o8 = 8 * h) (ho128 : o128 = 128 * h) (hh : h < 8)
    (hs1 : S1000x16x64.Slices ![0, 0, o8] S1000x16x8) (hs2 : S1000x16x8.Slices ![0, 0, h] S1000x16x1)
    (inb : ∀ a, (![0, o128] : Fin 2 → Nat) a + S1000x128.size a ≤ S1000x1024.size a)
    (x0 : FVec Ideal S1000x16x64 .bf16) (x1 : FVec Ideal S1000x16x8 .bf16) (x2 : FVec Ideal S1000x16x16 .bf16)
    (x : (Rect.unit (s := S1000x1024) ![0, o128] S1000x128.size inb).shape.Idx) :
    headPay (F := Ideal) (extractStridedSlice S1000x16x8 ![0, 0, o8] x0 hs1) (extractStridedSlice S1000x16x1 ![0, 0, h] x1 hs2) x2 x
      = Cert.Agg.rowsAgg 1000 x0 x1 x2 ((Rect.unit (s := S1000x1024) ![0, o128] S1000x128.size inb).emb x) := by
  obtain ⟨p, q, rfl⟩ : ∃ (p : Fin 1000) (q : Fin 128), x = ix2 p q := ⟨x 0, x 1, eq_ix2 x⟩
  have hq := q.isLt
  have hj : o128 + q.val < 1024 := by omega
  have he : (Rect.unit (s := S1000x1024) ![0, o128] S1000x128.size inb).emb (ix2 p q) = ix2 p ⟨o128 + q.val, hj⟩ :=
    funext fun a => Fin.ext (by
      match a with
      | ⟨0, _⟩ => show 0 + 1 * p.val = p.val; omega
      | ⟨1, _⟩ => show o128 + 1 * q.val = o128 + q.val; omega)
  rw [he, Cert.Agg.rowsAgg_apply]
  exact head_apply o8 h ho8 hh hs1 hs2 x0 x1 x2 p q ⟨o128 + q.val, hj⟩ (by show o128 + q.val = 128 * h + q.val; omega)

/-! ## Each stored value is its head -/

variable {F : FTy → Type} [FloatOps F]

theorem pay2_eq (v0 : Vec F S1000x16x64 .bf16) : k0_pay2 v0 = v0 := shapeCast_self v0 _
theorem pay3_eq (v2 : Vec F S1000x16x8 .bf16) : k0_pay3 v2 = v2 := shapeCast_self v2 _
theorem pay4_eq (v4 : Vec F S1000x16x16 .bf16) : k0_pay4 v4 = v4 := shapeCast_self v4 _

theorem store0_eq (x0 : Vec F S1000x16x64 .bf16) (x1 : Vec F S1000x16x8 .bf16) (x2 : Vec F S1000x16x16 .bf16) :
    k0_pay5 x0 x1 x2 = headPay (extractStridedSlice S1000x16x8 ![0, 0, 0] x0 slices_S1000x16x64_o0_0_0_S1000x16x8)
      (extractStridedSlice S1000x16x1 ![0, 0, 0] x1 slices_S1000x16x8_o0_0_0_S1000x16x1) x2 := by
  unfold k0_pay5; rw [pay2_eq, pay3_eq, pay4_eq]; rfl
theorem store1_eq (x0 : Vec F S1000x16x64 .bf16) (x1 : Vec F S1000x16x8 .bf16) (x2 : Vec F S1000x16x16 .bf16) :
    k0_pay6 x0 x1 x2 = headPay (extractStridedSlice S1000x16x8 ![0, 0, 8] x0 slices_S1000x16x64_o0_0_8_S1000x16x8)
      (extractStridedSlice S1000x16x1 ![0, 0, 1] x1 slices_S1000x16x8_o0_0_1_S1000x16x1) x2 := by
  unfold k0_pay6; rw [pay2_eq, pay3_eq, pay4_eq]; rfl
theorem store2_eq (x0 : Vec F S1000x16x64 .bf16) (x1 : Vec F S1000x16x8 .bf16) (x2 : Vec F S1000x16x16 .bf16) :
    k0_pay7 x0 x1 x2 = headPay (extractStridedSlice S1000x16x8 ![0, 0, 16] x0 slices_S1000x16x64_o0_0_16_S1000x16x8)
      (extractStridedSlice S1000x16x1 ![0, 0, 2] x1 slices_S1000x16x8_o0_0_2_S1000x16x1) x2 := by
  unfold k0_pay7; rw [pay2_eq, pay3_eq, pay4_eq]; rfl
theorem store3_eq (x0 : Vec F S1000x16x64 .bf16) (x1 : Vec F S1000x16x8 .bf16) (x2 : Vec F S1000x16x16 .bf16) :
    k0_pay10 (k0_pay4 x2) (k0_pay8 x0) (k0_pay9 x1)
      = headPay (extractStridedSlice S1000x16x8 ![0, 0, 24] x0 slices_S1000x16x64_o0_0_24_S1000x16x8)
      (extractStridedSlice S1000x16x1 ![0, 0, 3] x1 slices_S1000x16x8_o0_0_3_S1000x16x1) x2 := by
  unfold k0_pay10 k0_pay8 k0_pay9; rw [pay2_eq, pay3_eq, pay4_eq]; rfl
theorem store4_eq (x0 : Vec F S1000x16x64 .bf16) (x1 : Vec F S1000x16x8 .bf16) (x2 : Vec F S1000x16x16 .bf16) :
    k0_pay11 (k0_pay2 x0) (k0_pay3 x1) (k0_pay4 x2)
      = headPay (extractStridedSlice S1000x16x8 ![0, 0, 32] x0 slices_S1000x16x64_o0_0_32_S1000x16x8)
      (extractStridedSlice S1000x16x1 ![0, 0, 4] x1 slices_S1000x16x8_o0_0_4_S1000x16x1) x2 := by
  unfold k0_pay11; rw [pay2_eq, pay3_eq, pay4_eq]; rfl
theorem store5_eq (x0 : Vec F S1000x16x64 .bf16) (x1 : Vec F S1000x16x8 .bf16) (x2 : Vec F S1000x16x16 .bf16) :
    k0_pay12 (k0_pay2 x0) (k0_pay3 x1) (k0_pay4 x2)
      = headPay (extractStridedSlice S1000x16x8 ![0, 0, 40] x0 slices_S1000x16x64_o0_0_40_S1000x16x8)
      (extractStridedSlice S1000x16x1 ![0, 0, 5] x1 slices_S1000x16x8_o0_0_5_S1000x16x1) x2 := by
  unfold k0_pay12; rw [pay2_eq, pay3_eq, pay4_eq]; rfl
theorem store6_eq (x0 : Vec F S1000x16x64 .bf16) (x1 : Vec F S1000x16x8 .bf16) (x2 : Vec F S1000x16x16 .bf16) :
    k0_pay13 (k0_pay2 x0) (k0_pay3 x1) (k0_pay4 x2)
      = headPay (extractStridedSlice S1000x16x8 ![0, 0, 48] x0 slices_S1000x16x64_o0_0_48_S1000x16x8)
      (extractStridedSlice S1000x16x1 ![0, 0, 6] x1 slices_S1000x16x8_o0_0_6_S1000x16x1) x2 := by
  unfold k0_pay13; rw [pay2_eq, pay3_eq, pay4_eq]; rfl
theorem store7_eq (x0 : Vec F S1000x16x64 .bf16) (x1 : Vec F S1000x16x8 .bf16) (x2 : Vec F S1000x16x16 .bf16) :
    k0_pay1 (k0_pay4 x2) (k0_pay14 (k0_pay2 x0) (k0_pay3 x1))
      = headPay (extractStridedSlice S1000x16x8 ![0, 0, 56] x0 slices_S1000x16x64_o0_0_56_S1000x16x8)
      (extractStridedSlice S1000x16x1 ![0, 0, 7] x1 slices_S1000x16x8_o0_0_7_S1000x16x1) x2 := by
  unfold k0_pay1 k0_pay14; rw [pay2_eq, pay3_eq, pay4_eq]; rfl

/-! ## The block -/

/-- After the body the output block holds the row-wise sum of the three input blocks. -/
theorem out_eq (x0 : Vec Ideal S1000x16x64 .bf16) (x1 : Vec Ideal S1000x16x8 .bf16) (x2 : Vec Ideal S1000x16x16 .bf16) :
    out0_3 (F := Ideal) x0 x1 x2 = Cert.Agg.rowsAgg 1000 x0 x1 x2 := by
  funext y
  unfold out0_3
  simp only [View.ld_unit_zero (S := S1000x16x64) hz3, View.ld_unit_zero (S := S1000x16x8) hz3, View.ld_unit_zero (S := S1000x16x16) hz3]
  refine View.canon_apply_of_pieces (Val := Elt Ideal) (S := S1000x1024) (e := .f32) (Cert.Agg.rowsAgg 1000 x0 x1 x2) _ ?_ y (cover0_3 _ _ _ _ _ _ _ _ y)
  intro pc hpc x
  simp only [List.mem_cons, List.not_mem_nil, or_false] at hpc
  rcases hpc with rfl | rfl | rfl | rfl | rfl | rfl | rfl | rfl
  · exact (congrFun (store7_eq x0 x1 x2) x).trans (piece_eq 56 896 7 rfl rfl (by decide) slices_S1000x16x64_o0_0_56_S1000x16x8 slices_S1000x16x8_o0_0_7_S1000x16x1 inb_S1000x1024_S1000x128_0_896 x0 x1 x2 x)
  · exact (congrFun (store6_eq x0 x1 x2) x).trans (piece_eq 48 768 6 rfl rfl (by decide) slices_S1000x16x64_o0_0_48_S1000x16x8 slices_S1000x16x8_o0_0_6_S1000x16x1 inb_S1000x1024_S1000x128_0_768 x0 x1 x2 x)
  · exact (congrFun (store5_eq x0 x1 x2) x).trans (piece_eq 40 640 5 rfl rfl (by decide) slices_S1000x16x64_o0_0_40_S1000x16x8 slices_S1000x16x8_o0_0_5_S1000x16x1 inb_S1000x1024_S1000x128_0_640 x0 x1 x2 x)
  · exact (congrFun (store4_eq x0 x1 x2) x).trans (piece_eq 32 512 4 rfl rfl (by decide) slices_S1000x16x64_o0_0_32_S1000x16x8 slices_S1000x16x8_o0_0_4_S1000x16x1 inb_S1000x1024_S1000x128_0_512 x0 x1 x2 x)
  · exact (congrFun (store3_eq x0 x1 x2) x).trans (piece_eq 24 384 3 rfl rfl (by decide) slices_S1000x16x64_o0_0_24_S1000x16x8 slices_S1000x16x8_o0_0_3_S1000x16x1 inb_S1000x1024_S1000x128_0_384 x0 x1 x2 x)
  · exact (congrFun (store2_eq x0 x1 x2) x).trans (piece_eq 16 256 2 rfl rfl (by decide) slices_S1000x16x64_o0_0_16_S1000x16x8 slices_S1000x16x8_o0_0_2_S1000x16x1 inb_S1000x1024_S1000x128_0_256 x0 x1 x2 x)
  · exact (congrFun (store1_eq x0 x1 x2) x).trans (piece_eq 8 128 1 rfl rfl (by decide) slices_S1000x16x64_o0_0_8_S1000x16x8 slices_S1000x16x8_o0_0_1_S1000x16x1 inb_S1000x1024_S1000x128_0_128 x0 x1 x2 x)
  · exact (congrFun (store0_eq x0 x1 x2) x).trans (piece_eq 0 0 0 rfl rfl (by decide) slices_S1000x16x64_o0_0_0_S1000x16x8 slices_S1000x16x8_o0_0_0_S1000x16x1 inb_S1000x1024_S1000x128_0_0 x0 x1 x2 x)

end Cert.KernelIdeal.Body

end
-- ==== Proof.KernelArr.lean ====
/-
  From blocks to the array: what the `[100000, 1024]` result holds after the region.

  The grid has 100 points; at point `t` every window's block is rows `1000·t … 1000·t + 999` of its array, whole along
  the other axes. Row `p` of the three input blocks at `t` is therefore row `1000·t + p` of the three flattened operands as
  the region finds them, and the row-wise sum over a block is the restriction of the row-wise sum over the whole
  arrays to the block's rows (`rows_block`). So what point `t` writes back is block `t` of ONE function of the array index
  (`flushed_eq`); row `r` lies in the block of point `r / 1000` (`cover`); hence the array ends holding that function
  (`final`).
-/
import proofs.«152492_j9165460209716_2_alg».proof.Proof.Gen.KernelIdeal.Frame
import proofs.«152492_j9165460209716_2_alg».proof.Proof.BlockSpec
import proofs.«152492_j9165460209716_2_alg».proof.Proof.Spec

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The row-wise sum over a block of 1000 rows whose row `p` is row `T·1000 + p` of the whole operands is the row-wise
    sum over the whole operands at that row. -/
theorem rows_block (A0 : (⟨3, ![100000, 16, 64]⟩ : Shape).Idx → EReal) (A1 : (⟨3, ![100000, 16, 8]⟩ : Shape).Idx → EReal)
    (A2 : (⟨3, ![100000, 16, 16]⟩ : Shape).Idx → EReal)
    (b0 : (⟨3, ![1000, 16, 64]⟩ : Shape).Idx → EReal) (b1 : (⟨3, ![1000, 16, 8]⟩ : Shape).Idx → EReal)
    (b2 : (⟨3, ![1000, 16, 16]⟩ : Shape).Idx → EReal) (p : Fin 1000) (r : Fin 100000)
    (h0 : ∀ (k : Fin 16) (e : Fin 64), b0 (ix3 p k e) = A0 (ix3 r k e))
    (h1 : ∀ (k : Fin 16) (e : Fin 8), b1 (ix3 p k e) = A1 (ix3 r k e))
    (h2 : ∀ (k : Fin 16) (e : Fin 16), b2 (ix3 p k e) = A2 (ix3 r k e)) (j : Fin 1024) :
    Cert.Agg.rowsAggAt 1000 b0 b1 b2 p j = Cert.Agg.rowsAggAt 100000 A0 A1 A2 r j := by
  unfold Cert.Agg.rowsAggAt
  refine Finset.sum_congr rfl fun k _ => ?_
  rw [h0, h1, h2]

/-- The printed index maps, decided over the grid: at point `t` every window's block index is `t` on the row axis and
    `0` on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

theorem t_lt (t : Fin cfg0.N) : t.val < 100 := lt_of_lt_of_eq t.isLt N_0

/-- Row `p` of the gathered block at point `t` is row `1000·t + p` of the flattened gathered array. -/
theorem iblk0 (c : Dev nD) (t : Fin cfg0.N) (p : Fin 1000) (r : Fin 100000) (hr : r.val = t.val * 1000 + p.val) (k : Fin 16) (e : Fin 64) :
    iblk m c 0 t (ix3 p k e) = V m c main_v10 (ix3 r k e) := by
  obtain ⟨e0, e1, e2, -⟩ := idx_facts t
  have he : ((cfg0.win 0).blk t).view.emb (ix3 p k e) = ix3 r k e := by
    funext a; apply Fin.ext
    match a with
    | ⟨0, _⟩ => show win0_0.index t (0 : Fin 3) * 1000 + 1 * p.val = r.val; omega
    | ⟨1, _⟩ => show win0_0.index t (1 : Fin 3) * 16 + 1 * k.val = k.val; omega
    | ⟨2, _⟩ => show win0_0.index t (2 : Fin 3) * 64 + 1 * e.val = e.val; omega
  show V m c main_v10 (((cfg0.win 0).blk t).view.emb (ix3 p k e)) = _
  rw [he]

/-- The same for the guidance block. -/
theorem iblk1 (c : Dev nD) (t : Fin cfg0.N) (p : Fin 1000) (r : Fin 100000) (hr : r.val = t.val * 1000 + p.val) (k : Fin 16) (e : Fin 8) :
    iblk m c 1 t (ix3 p k e) = V m c main_v11 (ix3 r k e) := by
  obtain ⟨-, -, -, e0, e1, e2, -⟩ := idx_facts t
  have he : ((cfg0.win 1).blk t).view.emb (ix3 p k e) = ix3 r k e := by
    funext a; apply Fin.ext
    match a with
    | ⟨0, _⟩ => show win0_1.index t (0 : Fin 3) * 1000 + 1 * p.val = r.val; omega
    | ⟨1, _⟩ => show win0_1.index t (1 : Fin 3) * 16 + 1 * k.val = k.val; omega
    | ⟨2, _⟩ => show win0_1.index t (2 : Fin 3) * 8 + 1 * e.val = e.val; omega
  show V m c main_v11 (((cfg0.win 1).blk t).view.emb (ix3 p k e)) = _
  rw [he]

/-- The same for the weight block. -/
theorem iblk2 (c : Dev nD) (t : Fin cfg0.N) (p : Fin 1000) (r : Fin 100000) (hr : r.val = t.val * 1000 + p.val) (k : Fin 16) (e : Fin 16) :
    iblk m c 2 t (ix3 p k e) = V m c main_v12 (ix3 r k e) := by
  obtain ⟨-, -, -, -, -, -, e0, e1, e2, -⟩ := idx_facts t
  have he : ((cfg0.win 2).blk t).view.emb (ix3 p k e) = ix3 r k e := by
    funext a; apply Fin.ext
    match a with
    | ⟨0, _⟩ => show win0_2.index t (0 : Fin 3) * 1000 + 1 * p.val = r.val; omega
    | ⟨1, _⟩ => show win0_2.index t (1 : Fin 3) * 16 + 1 * k.val = k.val; omega
    | ⟨2, _⟩ => show win0_2.index t (2 : Fin 3) * 16 + 1 * e.val = e.val; omega
  show V m c main_v12 (((cfg0.win 2).blk t).view.emb (ix3 p k e)) = _
  rw [he]

/-- What the result array ends holding: the row-wise sum of the three flattened operands as the region finds them. -/
def G (c : Dev nD) : S100000x1024.Idx → EReal :=
  Cert.Agg.rowsAgg 100000 (V m c main_v10) (V m c main_v11) (V m c main_v12)

/-- What point `t` writes back is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, Cert.KernelIdeal.Body.out_eq]
  funext y
  obtain ⟨p, j, rfl⟩ : ∃ (p : Fin 1000) (j : Fin 1024), y = ix2 p j := ⟨y 0, y 1, eq_ix2 y⟩
  have ht := t_lt t
  have hp := p.isLt
  have hr : t.val * 1000 + p.val < 100000 := by omega
  obtain ⟨-, -, -, -, -, -, -, -, -, e0, e1⟩ := idx_facts t
  have he : ((cfg0.win 3).blk t).view.emb (ix2 p j) = ix2 (⟨t.val * 1000 + p.val, hr⟩ : Fin 100000) j := by
    funext a; apply Fin.ext
    match a with
    | ⟨0, _⟩ => show win0_3.index t (0 : Fin 2) * 1000 + 1 * p.val = t.val * 1000 + p.val; omega
    | ⟨1, _⟩ => show win0_3.index t (1 : Fin 2) * 1024 + 1 * j.val = j.val; omega
  show Cert.Agg.rowsAgg 1000 (iblk m c 0 t) (iblk m c 1 t) (iblk m c 2 t) (ix2 p j)
    = Cert.Agg.rowsAgg 100000 (V m c main_v10) (V m c main_v11) (V m c main_v12) (((cfg0.win 3).blk t).view.emb (ix2 p j))
  rw [he, Cert.Agg.rowsAgg_apply, Cert.Agg.rowsAgg_apply]
  exact rows_block (V m c main_v10) (V m c main_v11) (V m c main_v12) (iblk m c 0 t) (iblk m c 1 t) (iblk m c 2 t) p
    ⟨t.val * 1000 + p.val, hr⟩ (fun k e => iblk0 m c t p _ rfl k e) (fun k e => iblk1 m c t p _ rfl k e)
    (fun k e => iblk2 m c t p _ rfl k e) j

/-- An index of the array is in point `t`'s block iff each coordinate is in the block's range on its axis. -/
theorem mem_blk (t : Fin cfg0.N) (i : S100000x1024.Idx) :
    i ∈ ((cfg0.win 3).blk t).view.set ↔ ∀ a : Fin 2, win0_3.index t a * S1000x1024.size a ≤ (i a).val ∧ (i a).val < win0_3.index t a * S1000x1024.size a + S1000x1024.size a := by
  show i ∈ ((View.whole main_v13).slice (win0_3.rect t)).set ↔ _
  rw [View.set_slice_whole, Rect.mem_set_unit]
  exact Iff.rfl

/-- Row `r` of the array is in the block of point `r / 1000`. -/
theorem cover (i : S100000x1024.Idx) : ∃ t : Fin cfg0.N, (cfg0.win 3).flush t = true ∧ i ∈ ((cfg0.win 3).blk t).view.set := by
  have hi0 : (i 0).val < 100000 := (i 0).isLt
  have hi1 : (i 1).val < 1024 := (i 1).isLt
  have hN : cfg0.N = 100 := N_0
  have hlt : (i 0).val / 1000 < cfg0.N := by rw [hN]; omega
  refine ⟨⟨(i 0).val / 1000, hlt⟩, flush0_3 _, ?_⟩
  rw [mem_blk]
  obtain ⟨-, -, -, -, -, -, -, -, -, e0, e1⟩ := idx_facts ⟨(i 0).val / 1000, hlt⟩
  intro a
  match a with
  | ⟨0, _⟩ =>
    show win0_3.index ⟨(i 0).val / 1000, hlt⟩ (0 : Fin 2) * 1000 ≤ (i 0).val ∧ (i 0).val < win0_3.index ⟨(i 0).val / 1000, hlt⟩ (0 : Fin 2) * 1000 + 1000
    rw [e0]
    show (i 0).val / 1000 * 1000 ≤ (i 0).val ∧ (i 0).val < (i 0).val / 1000 * 1000 + 1000
    omega
  | ⟨1, _⟩ =>
    show win0_3.index ⟨(i 0).val / 1000, hlt⟩ (1 : Fin 2) * 1024 ≤ (i 1).val ∧ (i 1).val < win0_3.index ⟨(i 0).val / 1000, hlt⟩ (1 : Fin 2) * 1024 + 1024
    rw [e1]
    omega

/-- The result array after the region. -/
theorem final (c : Dev nD) : (dats m 0 c).arrAt 3 cfg0.N = G m c :=
  (dats m 0 c).arrAt_eq_of_cover 3 (G m c) (fun t _ => flushed_eq m c t) cover

end Cert.KernelIdeal.Arr

end
-- ==== Proof.HostSide.lean ====
import proofs.«152492_j9165460209716_2_alg».proof.Proof.Gen.KernelIdeal.Frame
import Idealize.ShloMosaic.Lib.StableHlo.Run
import Idealize.ShloMosaic.Lib.Pipeline.Value
import Idealize.ShloMosaic.Lib.ValueIdx

/-!
# What the kernel program's host operations do around its one region

Before the region the program rounds the features to bf16 (the identity at the ideal instance), wraps a
negative neighbour index by the table's 50000 rows, gathers the neighbours' feature rows, rounds the
guidance and the weights to bf16 (the identity again), and joins the two leading axes [2, 50000] of all
three arrays into one row axis [100000]. After the region it splits the rows of the [100000, 1024]
result back into [2, 50000, 1024].
-/

noncomputable section
namespace Cert.KernelIdeal.HostSide
open Cert.KernelIdeal Cert.KernelIdeal.Gen Idealize.ShloMosaic Idealize.ShloMosaic.TcCoe Idealize.SL.Sem Idealize.ShloMosaic.StableHlo

/-- The neighbour indices as the gather reads them: a negative index wrapped by the table's 50000 rows, with a trailing unit axis. -/
def wrapIdx (x1 : (⟨S2x50000x16, .i32⟩ : BufTy).Contents (Elt Ideal)) : (⟨S2x50000x16x1, .i32⟩ : BufTy).Contents (Elt Ideal) :=
  broadcastInDim S2x50000x16x1 ![0, 1, 2] bcast_S2x50000x16_S2x50000x16x1_0_1_2
    (select (cmpi .slt x1 (broadcastInDim S2x50000x16 ![] bcast_S_S2x50000x16 (constantI S_ 32 0#32)))
      (addi x1 (broadcastInDim S2x50000x16 ![] bcast_S_S2x50000x16 (constantI S_ 32 50000#32))) x1)

/-- The gathered neighbour features [2, 50000, 16, 64] of the argument arrays. -/
def gathered (x0 : S2x50000x64.Idx → EReal) (x1 : (⟨S2x50000x16, .i32⟩ : BufTy).Contents (Elt Ideal)) : S2x50000x16x64.Idx → EReal :=
  Host.gather gather_S2x50000x64_S2x50000x16x1_S2x50000x16x64_3_1_0_0_1_3_1164 x0 (wrapIdx x1)

variable (m : (ℓ : Loc nD τ sig) → Buf (Elt Ideal) ℓ)

theorem V_main_v10 (c : Dev nD) : (V m c main_v10 : S100000x16x64.Idx → EReal)
    = shapeCast S100000x16x64 (gathered (m ((c.tc : Thread nD τ).loc main_arg0)) (m ((c.tc : Thread nD τ).loc main_arg1))) shapeCasts_S2x50000x16x64_S100000x16x64 := by
  show StableHlo.after hostOps0 (fun b => m (c, b)) (Proc.devRef .tc main_v10) = _
  after_results
  rfl

theorem V_main_v11 (c : Dev nD) : (V m c main_v11 : S100000x16x8.Idx → EReal)
    = shapeCast S100000x16x8 (m ((c.tc : Thread nD τ).loc main_arg2)) shapeCasts_S2x50000x16x8_S100000x16x8 := by
  show StableHlo.after hostOps0 (fun b => m (c, b)) (Proc.devRef .tc main_v11) = _
  after_results
  rfl

theorem V_main_v12 (c : Dev nD) : (V m c main_v12 : S100000x16x16.Idx → EReal)
    = shapeCast S100000x16x16 (m ((c.tc : Thread nD τ).loc main_arg3)) shapeCasts_S2x50000x16x16_S100000x16x16 := by
  show StableHlo.after hostOps0 (fun b => m (c, b)) (Proc.devRef .tc main_v12) = _
  after_results
  rfl

/-- After the region the result's rows are split again. -/
theorem tail_main_v14 (c : Dev nD) : (Pipeline.afterTail₀ cfgs (dats m) 0 (V0 m) [hostOps1] c main_v14 : S2x50000x1024.Idx → EReal)
    = shapeCast S2x50000x1024 ((dats m 0 c).arrAt 3 cfg0.N) shapeCasts_S100000x1024_S2x50000x1024 := by
  unfold Pipeline.afterTail₀
  show StableHlo.after hostOps1 _ (Proc.devRef .tc main_v14) = _
  after_results
  have h : Pipeline.withArrays (cfgs 0).spec c (V0 m c) (fun w => (dats m 0 c).arrAt w (cfgs 0).N) (Proc.devRef .tc main_v13)
      = (dats m 0 c).arrAt 3 cfg0.N :=
    Pipeline.withArrays_arr spec0 launch0.win.arr_inj c (V0 m c) _ 3
  rw [h]
  rfl

end Cert.KernelIdeal.HostSide
end
-- ==== Proof.KernelRun.lean ====
/-
  The kernel program's result as a function of its arguments.

  After the region the `[100000, 1024]` array holds the row-wise sum of the three flattened operands; the operands are
  the gathered features, the guidance and the weights with their two leading axes `[2, 50000]` joined, and the program's
  last operation splits the result's rows back into `[2, 50000]`. Joining the leading axes commutes with the sum
  (`Cert.Agg.agg_of_rows`), so the result is the batched sum `Cert.Agg.agg` of the gathered features, the guidance and
  the weights (`result_eq`). The program's run, with the result named and the arguments unchanged, follows.
-/
import proofs.«152492_j9165460209716_2_alg».proof.Proof.Gen.KernelIdeal.Frame
import proofs.«152492_j9165460209716_2_alg».proof.Proof.KernelArr
import proofs.«152492_j9165460209716_2_alg».proof.Proof.HostSide
import proofs.«152492_j9165460209716_2_alg».proof.Proof.Spec

noncomputable section

namespace Cert.KernelIdeal.ValueRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer after the last host operation is the batched sum of the gathered features, the guidance and the
    weights. -/
theorem result_eq (c : Dev nD) :
    (Pipeline.afterTail₀ cfgs (dats m) 0 (V0 m) [hostOps1] c main_v14 : S2x50000x1024.Idx → EReal)
      = Cert.Agg.agg (Cert.KernelIdeal.HostSide.gathered (m ((c.tc : Thread nD τ).loc main_arg0)) (m ((c.tc : Thread nD τ).loc main_arg1)))
          (m ((c.tc : Thread nD τ).loc main_arg2)) (m ((c.tc : Thread nD τ).loc main_arg3)) := by
  rw [Cert.KernelIdeal.HostSide.tail_main_v14, Cert.KernelIdeal.Arr.final]
  unfold Cert.KernelIdeal.Arr.G
  rw [Cert.KernelIdeal.HostSide.V_main_v10, Cert.KernelIdeal.HostSide.V_main_v11, Cert.KernelIdeal.HostSide.V_main_v12]
  exact Cert.Agg.agg_of_rows _ _ _ _ _ _ _

/-- Every weakly fair execution terminates with the result at the batched sum and the arguments unchanged. -/
theorem run : θ_run defs (onTc (τ := τ) (main (F := Ideal))) ⟨m, fun _ => 0, ρ⟩ fun r => ∀ c : Dev nD,
      r.2.mem ((c.tc : Thread nD τ).loc main_v14)
        = Cert.Agg.agg (Cert.KernelIdeal.HostSide.gathered (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ValueRun

end
-- ==== Proof.GatherEq.lean ====
/-
  Both programs gather the same rows.

  Each program wraps a negative neighbour index by the table's 50000 rows and reads, for every point and neighbour,
  the 64 features of the indexed row; the kernel program first rounds the table to bf16, which is the identity at the
  ideal instance. The two gathers are therefore one function of the feature table and the index array.
-/
import proofs.«152492_j9165460209716_2_alg».proof.Proof.Gen.ReferenceIdeal.Read
import proofs.«152492_j9165460209716_2_alg».proof.Proof.HostSide

noncomputable section

namespace Cert.GatherEq

open Idealize.ShloMosaic

/-- The reference's gather stage is the kernel program's gathered array, as functions of the same arguments. -/
theorem gather_eq (x0 : (⟨Cert.ReferenceIdeal.S2x50000x64, .f32⟩ : BufTy).Contents (Elt Ideal))
    (x1 : (⟨Cert.ReferenceIdeal.S2x50000x16, .i32⟩ : BufTy).Contents (Elt Ideal)) :
    Cert.ReferenceIdeal.Read.val_main_v6 (F := Ideal) x0 x1 = Cert.KernelIdeal.HostSide.gathered x0 x1 := rfl

end Cert.GatherEq

end
-- ==== Proof.lean ====
/-
  The certificate: the neighbour-aggregation kernel and its reference compute the same array over the extended reals.

  Both programs gather, for every batch `b`, point `n` and neighbour `k`, the 64 features of the indexed row, scale
  channel `c` by the guidance of its head `c / 8`, and contract the 16 neighbours against the 16 weight columns; output
  column `16·c + m` of `(b, n)` is Σ_k feature(b,n,k,c) · guidance(b,n,k,c/8) · weight(b,n,k,m) (`Cert.Agg.agg`).

  The reference does this on the batched arrays, through a view `[…, 64] → […, 8, 8]` and one batched contraction
  (`Cert.ReferenceIdeal.RefSpec.ref_eq_agg`). The kernel program joins the two leading axes into 100000 rows, works on
  blocks of 1000 rows, one head (8 channels, 128 output columns) at a time with the operands rounded to bf16 — the
  identity at the ideal instance — and splits the rows again (`Cert.KernelIdeal.ValueRun.run`). The two agree because
  joining the leading axes commutes with the sum over the neighbours, and the sum needs no finiteness: only the order
  and grouping of the terms differ. Nothing was rewritten by the idealization, so `preserves` is trivial; the kernel
  programs' frames are the generated ones, the reference's frame is its generated run with the result dropped.
-/
import proofs.«152492_j9165460209716_2_alg».proof.Defs
import proofs.«152492_j9165460209716_2_alg».proof.Proof.Gen.Kernel
import proofs.«152492_j9165460209716_2_alg».proof.Proof.Gen.Kernel.Skeleton
import proofs.«152492_j9165460209716_2_alg».proof.Proof.Gen.Kernel.Launch
import proofs.«152492_j9165460209716_2_alg».proof.Proof.Gen.Kernel.Points
import proofs.«152492_j9165460209716_2_alg».proof.Proof.Gen.Kernel.Frame
import proofs.«152492_j9165460209716_2_alg».proof.Proof.Gen.KernelIdeal
import proofs.«152492_j9165460209716_2_alg».proof.Proof.Gen.KernelIdeal.Skeleton
import proofs.«152492_j9165460209716_2_alg».proof.Proof.Gen.KernelIdeal.Launch
import proofs.«152492_j9165460209716_2_alg».proof.Proof.Gen.KernelIdeal.Points
import proofs.«152492_j9165460209716_2_alg».proof.Proof.Gen.KernelIdeal.Frame
import proofs.«152492_j9165460209716_2_alg».proof.Proof.Gen.ReferenceIdeal
import proofs.«152492_j9165460209716_2_alg».proof.Proof.Gen.Pre_finite_inputs
import proofs.«152492_j9165460209716_2_alg».proof.Proof.Gen.ReferenceIdeal.Run
import proofs.«152492_j9165460209716_2_alg».proof.Proof.Gen.ReferenceIdeal.Read
import proofs.«152492_j9165460209716_2_alg».proof.Proof.RefSpec
import proofs.«152492_j9165460209716_2_alg».proof.Proof.KernelRun
import proofs.«152492_j9165460209716_2_alg».proof.Proof.GatherEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the batched sum of the gathered features, the
    guidance and the weights: the kernel program by its value run, the reference by its generated run read as the
    specification, the two gathers being one function of the same arguments. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefSpec.ref_eq_agg, Cert.GatherEq.gather_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
